-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S8192x2048 : Shape := ⟨2, ![8192, 2048]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x1, .f32⟩
  | .hbm, ⟨4, _⟩ => ⟨S8192x1, .f32⟩
  | .hbm, ⟨5, _⟩ => ⟨S1x8192, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S1024x1, .f32⟩
  | .local _ .vmem, ⟨11, _⟩ => ⟨S1024x1, .f32⟩
  | .local _ .vmem, ⟨12, _⟩ => ⟨S1x1024, .f32⟩
  | .local _ .vmem, ⟨13, _⟩ => ⟨S1x1024, .f32⟩
  | .local _ .vmem, ⟨14, _⟩ => ⟨S1x1, .f32⟩
  | .local _ .vmem, ⟨15, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v25 : BitVec 1 := Scalar.cmpi .eq arg0 c7_i32
  let arg1 : BitVec 32 := BitVec.ofNat 32 (i 1).val
  let c7_i32_12 : BitVec 32 := 7#32
  let v26 : BitVec 1 := Scalar.cmpi .eq arg1 c7_i32_12
  let v27 : BitVec 1 := Scalar.andi v25 v26
  let v28 : BitVec 32 := Scalar.extui v27
  let c0_i32_13 : BitVec 32 := 0#32
  let v29 : BitVec 1 := Scalar.cmpi .ne v28 c0_i32_13
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  transposes_S8192x1_S1x8192_1_0 : S8192x1.Transposes [1, 0] S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.K_Reg0.lean ====
/-
  The first region: the row reductions, at the contents `V` the region is entered with.

  At grid point t (32 points) the body reads rows 256·t … 256·t + 255 of pos, of p and of neg, and stores into the
  two output columns, for each of those rows, the sum of pos · p along the row and the maximum of neg along the row.
  Each point writes its own 256 rows of the two columns back; the three inputs are never written.
-/
import proofs.«160039_j3642132267438_1_alg».proof.Proof.Gen.Kernel.Launch
import proofs.«160039_j3642132267438_1_alg».proof.Proof.Gen.Kernel.Skeleton
import proofs.«160039_j3642132267438_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: rows 256·t … of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rIn0 : Rect S256x2048 := Rect.unit (s := S256x2048) ![0, 0] S256x2048.size inb_S256x2048_S256x2048_0_0
abbrev rOut0 : Rect S256x1 := Rect.unit (s := S256x1) ![0, 0] S256x1.size inb_S256x1_S256x1_0_0

/-! ## What the body leaves in the two output columns' buffers -/

/-- The row sums of pos · p over the point's 256 rows, as the one store leaves them. -/
def out0_3 (x0 x1 : Vec F S256x2048 .f32) : Vec F S256x1 .f32 :=
  View.canon [⟨rOut0, k0_pay1 (View.ld x0 rIn0) (View.ld x1 rIn0)⟩]
/-- The row maxima of neg over the point's 256 rows, as the one store leaves them. -/
def out0_4 (x2 : Vec F S256x2048 .f32) : Vec F S256x1 .f32 :=
  View.canon [⟨rOut0, k0_pay2 (View.ld x2 rIn0)⟩]

/-- One whole-buffer store covers the buffer. -/
theorem cover0 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

/-! ## The body's triple -/

set_option maxHeartbeats 1000000 in
/-- On whole staging buffers, the inputs' at `x0 x1 x2` and the outputs' at anything, the body runs to the inputs
    unchanged and the outputs at the row sums and the row maxima. -/
theorem sound_kernel0 (c : Dev nD) (E : Set ℕ) (i : grid0.Coords) (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x1 .f32) (harg4 : arg4.IsWhole) (arg5 : Memref sig .tc .vmem S256x1 .f32) (harg5 : arg5.IsWhole)
    (x0 x1 x2 : Vec F S256x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x2)) -∗ K ⟨⟩))
      ⊢ wp frame (wpE (defs₀ (F := F)) Variants.none c none) E (cc0__stage1_kernel i arg1 harg1 arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The proof data -/

/-- The arrays as the region finds them; after the body at point `t` each input's buffer at its block, the two
    outputs' at the row sums and the row maxima of the point's blocks; the invariant is the untouched rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K_Reg1Runs.lean ====
/-
  The second region: the pairwise hinges, summed block by block into one scalar, at the contents `V` the region is
  entered with.

  The grid is 8 × 8 (64 points, row block first). At point t the body reads 1024 entries of the column of row scores
  (row block t / 8) and 1024 entries of the row of row maxima (column block t % 8), forms the 1024 × 1024 hinges
  max ((1 − score) + maximum, 0), sums them, and adds the sum to a one-word accumulator it keeps between points: the
  accumulator is set to 0 at the first point, and copied to the one-word output at the last point, the only point
  whose output is written back.
-/
import proofs.«160039_j3642132267438_1_alg».proof.Proof.Gen.Kernel.Launch
import proofs.«160039_j3642132267438_1_alg».proof.Proof.Gen.Kernel.Skeleton
import proofs.«160039_j3642132267438_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the first point": both grid coordinates are 0. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": both grid coordinates are 7. -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the output is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is stored into. -/
theorem liveAt1_2 : ∀ t : Fin cfg1.N, cond1_1 (grid1.coords t) → cfg1.idle 2 (grid1.coords t) = false := by decide +kernel

/-! ## The memrefs the body is called with -/

abbrev VO1_2 : View sig .tc .vmem S1x1 .f32 := (Memref.whole cc1_stg2_0 : Memref sig .tc .vmem S1x1 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1x1 .f32 := Memref.whole cc1_scratch0
abbrev VS1 : View sig .tc .vmem S1x1 .f32 := scM1.view

/-- The untouched rest with the accumulator at some contents: the first region's ten staging buffers at anything,
    the accumulator, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's runs, case by case: the pieces each buffer ends with are found by the run -/

set_option maxHeartbeats 1000000 in
/-- THE FIRST POINT: the accumulator, at anything, is set to 0 and then to 0 + the block's sum; the output is untouched. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x1 .f32) (x1 : Vec F S1x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stage2_kernel i arg2 harg2 arg3 harg3 arg4 harg4 arg5 harg5) K } := by
  refine ⟨[], ?_, fun xi2 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A MIDDLE POINT: the accumulator, at `xs0`, gains the block's sum; the output is untouched. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x1 .f32) (x1 : Vec F S1x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stage2_kernel i arg2 harg2 arg3 harg3 arg4 harg4 arg5 harg5) K } := by
  refine ⟨[], ?_, fun xi2 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- THE LAST POINT: the accumulator, at `xs0`, gains the block's sum and is copied to the output. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__stage2_kernel i arg2 harg2 arg3 harg3 arg4 harg4 arg5 harg5) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K_Reg1.lean ====
/-
  The second region, continued: what the accumulator and the output hold after each point, the invariant that carries
  the accumulator from point to point, the proof data and the body obligation.
-/
import proofs.«160039_j3642132267438_1_alg».proof.Proof.K_Reg1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output -/

theorem scover1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x1 .f32) (x1 : Vec F S1x1024 .f32) (y : S1x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x1.size (by sl_kernel_rfl) y
/-- The accumulator after the first point. -/
def sout1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x1 .f32) (x1 : Vec F S1x1024 .f32) : Vec F S1x1 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x1 .f32) (x1 : Vec F S1x1024 .f32) (xs0 : Vec F S1x1 .f32) (y : S1x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x1.size (by sl_kernel_rfl) y
/-- The accumulator after a middle point, from what the point before left. -/
def sout1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x1 .f32) (x1 : Vec F S1x1024 .f32) (xs0 : Vec F S1x1 .f32) : Vec F S1x1 .f32 :=
  VS1.read (Elt F) (VS1.writes (Elt F) VS1.junk (kernelRun1_B c i arg2 harg2 arg3 harg3 arg4 harg4 arg5 harg5 hc0 hc1 x0 x1 xs0).2.1)

theorem scover1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) (y : S1x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x1.size (by sl_kernel_rfl) y
/-- The accumulator after the last point. -/
def sout1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) : Vec F S1x1 .f32 :=
  VS1.read (Elt F) (VS1.writes (Elt F) VS1.junk (kernelRun1_C c i arg2 harg2 arg3 harg3 arg4 harg4 arg5 harg5 hc0 hc1 x0 x1 xs0).2.1)

theorem cover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) (y : S1x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1.size (by sl_kernel_rfl) y
/-- The output's buffer after the last point. -/
def out1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) : Vec F S1x1 .f32 :=
  VO1_2.read (Elt F) (VO1_2.writes (Elt F) VO1_2.junk (kernelRun1_C c i arg2 harg2 arg3 harg3 arg4 harg4 arg5 harg5 hc0 hc1 x0 x1 xs0).1)

/-! ## The accumulation, point by point -/

/-- After the body at position `n`: (the output's buffer, the accumulator). The output's component matters only at the
    last point (elsewhere the window is idle: the accumulator's value stands in). -/
def outsAt1 (c : Dev nD) : (n : ℕ) → n < cfg1.N → Vec F S1x1 .f32 × Vec F S1x1 .f32
  | 0, hn =>
    (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩))
  | n + 1, hn =>
    if h1 : n + 1 = 63 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2)
    else
      (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : ¬t.val = 63) :
    outsAt1 V c t.val t.isLt =
      (sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
       sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 63) :
    outsAt1 V c t.val t.isLt =
      (sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 63) :
    outsAt1 V c t.val t.isLt =
      (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the accumulator's value is carried from point to point -/

/-- Before the first point the untouched rest at anything; after point `n` the same with the accumulator at what
    point `n` left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms of the two conditions say which case the point is in; the invariant hands
    the body the accumulator at what the point before left (at anything before the first point) and takes it back at
    this point's value; away from the last point the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 63 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    rw [PhiS_castSucc V c t, PhiS_zero V c _ _ h0, PhiA1_eq]
    iintro ⟨⟨⟨R0, R1, R2, R3, R4, R5, R6, R7, R8, R9, HS0⟩, Hg⟩, Ho, ⟨%d0, H0⟩, ⟨%d1, H1⟩, ⟨%d2, H2⟩⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [R0 R1 R2 R3 R4 R5 R6 R7 R8 R9 HS0 Hg]
    · isplitl [R0 R1 R2 R3 R4 R5 R6 R7 R8 R9 HS0]
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      · unfold owns; iexists _; isplitr
        swap; · iexact HS0
        ipureintro; exact View.read_writes_of_cover _ _ _ _ _ (scover1_A c _ _ _ _ _ _ _ _ _ _ _ _ _)
      iexact Hg
    isplitl [Ho]; · iexact Ho
    isplitl [H0]; · iexact H0
    isplitl [H1]; · iexact H1
    iexists _; iexact H2
  · by_cases h1 : t.val = 63
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS_castSucc V c t, PhiS_pos V c _ _ h0]
      iintro ⟨⟨⟨R0, R1, R2, R3, R4, R5, R6, R7, R8, R9, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [R0 R1 R2 R3 R4 R5 R6 R7 R8 R9 HS0 Hg]
      · isplitl [R0 R1 R2 R3 R4 R5 R6 R7 R8 R9 HS0]
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        · unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ h0]
      iintro ⟨⟨⟨R0, R1, R2, R3, R4, R5, R6, R7, R8, R9, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [R0 R1 R2 R3 R4 R5 R6 R7 R8 R9 HS0 Hg]
      · isplitl [R0 R1 R2 R3 R4 R5 R6 R7 R8 R9 HS0]
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        · unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the untouched rest back: the accumulator's value is forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne, PhiA1_eq]
  iintro ⟨⟨R0, R1, R2, R3, R4, R5, R6, R7, R8, R9, HS0⟩, Hg⟩
  isplitl [R0 R1 R2 R3 R4 R5 R6 R7 R8 R9 HS0]
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  · iexists _; iexact HS0
  iexact Hg

end Cert.Kernel.Fr

end
-- ==== Proof.K_Run.lean ====
/-
  The whole run: the row reductions, the transposition of the column of maxima to a row, the block-by-block sum of
  the hinges, and the quotient by 2^26 — with the contents of every unscoped buffer at each boundary named.

  Between two items every unscoped buffer is held whole at a known contents: the launch memory; then each array of
  the first region at what its write-backs leave; then the host's transposition applied; then the second region's
  one-word output at what its last point writes back; then the host's three closing operations applied. The arguments
  are written by nothing, so they end as launched.
-/
import proofs.«160039_j3642132267438_1_alg».proof.Proof.K_Reg0
import proofs.«160039_j3642132267438_1_alg».proof.Proof.K_Reg1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the write-backs leave, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the transposition (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing host operations: the end. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 2).trans (((dat0 (V0 m) c).arrAt_in 2 rfl _).trans (A_eq0 (V0 m) c 2))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (V0 m) c).arrAt_in 1 rfl _).trans (A_eq0 (V0 m) c 1))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2`, left at `W3`; its invariant starts and ends at the untouched rest. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    exact (show _ ⊢ (Pipeline.ΦA spec1 c : sProp 𝕄) from by
      unfold Pipeline.ΦA
      iintro ⟨Hp, -, Hr⟩
      isplitl [Hr]; · iexact Hr
      iexact Hp).trans (hin1 (V2 m) c)
  hout c := by
    rw [Pipeline.ownSems0_none, show (pdats m 1 c).Φ (Fin.last _) = (dat1 (V2 m) c).Φ (Fin.last cfg1.N) from rfl]
    exact (hout1 (V2 m) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Fr

end
-- ==== Proof.KI_Reg0.lean ====
/-
  The first region: the row reductions, at the contents `V` the region is entered with.

  At grid point t (32 points) the body reads rows 256·t … 256·t + 255 of pos, of p and of neg, and stores into the
  two output columns, for each of those rows, the sum of pos · p along the row and the maximum of neg along the row.
  Each point writes its own 256 rows of the two columns back; the three inputs are never written.
-/
import proofs.«160039_j3642132267438_1_alg».proof.Proof.Gen.KernelIdeal.Launch
import proofs.«160039_j3642132267438_1_alg».proof.Proof.Gen.KernelIdeal.Skeleton
import proofs.«160039_j3642132267438_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: rows 256·t … of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rIn0 : Rect S256x2048 := Rect.unit (s := S256x2048) ![0, 0] S256x2048.size inb_S256x2048_S256x2048_0_0
abbrev rOut0 : Rect S256x1 := Rect.unit (s := S256x1) ![0, 0] S256x1.size inb_S256x1_S256x1_0_0

/-! ## What the body leaves in the two output columns' buffers -/

/-- The row sums of pos · p over the point's 256 rows, as the one store leaves them. -/
def out0_3 (x0 x1 : Vec F S256x2048 .f32) : Vec F S256x1 .f32 :=
  View.canon [⟨rOut0, k0_pay1 (View.ld x0 rIn0) (View.ld x1 rIn0)⟩]
/-- The row maxima of neg over the point's 256 rows, as the one store leaves them. -/
def out0_4 (x2 : Vec F S256x2048 .f32) : Vec F S256x1 .f32 :=
  View.canon [⟨rOut0, k0_pay2 (View.ld x2 rIn0)⟩]

/-- One whole-buffer store covers the buffer. -/
theorem cover0 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

/-! ## The body's triple -/

set_option maxHeartbeats 1000000 in
/-- On whole staging buffers, the inputs' at `x0 x1 x2` and the outputs' at anything, the body runs to the inputs
    unchanged and the outputs at the row sums and the row maxima. -/
theorem sound_kernel0 (c : Dev nD) (E : Set ℕ) (i : grid0.Coords) (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x1 .f32) (harg4 : arg4.IsWhole) (arg5 : Memref sig .tc .vmem S256x1 .f32) (harg5 : arg5.IsWhole)
    (x0 x1 x2 : Vec F S256x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x2)) -∗ K ⟨⟩))
      ⊢ wp frame (wpE (defs₀ (F := F)) Variants.none c none) E (cc0__stage1_kernel i arg1 harg1 arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The proof data -/

/-- The arrays as the region finds them; after the body at point `t` each input's buffer at its block, the two
    outputs' at the row sums and the row maxima of the point's blocks; the invariant is the untouched rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI_Reg1Runs.lean ====
/-
  The second region: the pairwise hinges, summed block by block into one scalar, at the contents `V` the region is
  entered with.

  The grid is 8 × 8 (64 points, row block first). At point t the body reads 1024 entries of the column of row scores
  (row block t / 8) and 1024 entries of the row of row maxima (column block t % 8), forms the 1024 × 1024 hinges
  max ((1 − score) + maximum, 0), sums them, and adds the sum to a one-word accumulator it keeps between points: the
  accumulator is set to 0 at the first point, and copied to the one-word output at the last point, the only point
  whose output is written back.
-/
import proofs.«160039_j3642132267438_1_alg».proof.Proof.Gen.KernelIdeal.Launch
import proofs.«160039_j3642132267438_1_alg».proof.Proof.Gen.KernelIdeal.Skeleton
import proofs.«160039_j3642132267438_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the first point": both grid coordinates are 0. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": both grid coordinates are 7. -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the output is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is stored into. -/
theorem liveAt1_2 : ∀ t : Fin cfg1.N, cond1_1 (grid1.coords t) → cfg1.idle 2 (grid1.coords t) = false := by decide +kernel

/-! ## The memrefs the body is called with -/

abbrev VO1_2 : View sig .tc .vmem S1x1 .f32 := (Memref.whole cc1_stg2_0 : Memref sig .tc .vmem S1x1 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1x1 .f32 := Memref.whole cc1_scratch0
abbrev VS1 : View sig .tc .vmem S1x1 .f32 := scM1.view

/-- The untouched rest with the accumulator at some contents: the first region's ten staging buffers at anything,
    the accumulator, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's runs, case by case: the pieces each buffer ends with are found by the run -/

set_option maxHeartbeats 1000000 in
/-- THE FIRST POINT: the accumulator, at anything, is set to 0 and then to 0 + the block's sum; the output is untouched. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x1 .f32) (x1 : Vec F S1x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stage2_kernel i arg2 harg2 arg3 harg3 arg4 harg4 arg5 harg5) K } := by
  refine ⟨[], ?_, fun xi2 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A MIDDLE POINT: the accumulator, at `xs0`, gains the block's sum; the output is untouched. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x1 .f32) (x1 : Vec F S1x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stage2_kernel i arg2 harg2 arg3 harg3 arg4 harg4 arg5 harg5) K } := by
  refine ⟨[], ?_, fun xi2 E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- THE LAST POINT: the accumulator, at `xs0`, gains the block's sum and is copied to the output. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__stage2_kernel i arg2 harg2 arg3 harg3 arg4 harg4 arg5 harg5) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI_Reg1.lean ====
/-
  The second region, continued: what the accumulator and the output hold after each point, the invariant that carries
  the accumulator from point to point, the proof data and the body obligation.
-/
import proofs.«160039_j3642132267438_1_alg».proof.Proof.KI_Reg1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output -/

theorem scover1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x1 .f32) (x1 : Vec F S1x1024 .f32) (y : S1x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x1.size (by sl_kernel_rfl) y
/-- The accumulator after the first point. -/
def sout1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x1 .f32) (x1 : Vec F S1x1024 .f32) : Vec F S1x1 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x1 .f32) (x1 : Vec F S1x1024 .f32) (xs0 : Vec F S1x1 .f32) (y : S1x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x1.size (by sl_kernel_rfl) y
/-- The accumulator after a middle point, from what the point before left. -/
def sout1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x1 .f32) (x1 : Vec F S1x1024 .f32) (xs0 : Vec F S1x1 .f32) : Vec F S1x1 .f32 :=
  VS1.read (Elt F) (VS1.writes (Elt F) VS1.junk (kernelRun1_B c i arg2 harg2 arg3 harg3 arg4 harg4 arg5 harg5 hc0 hc1 x0 x1 xs0).2.1)

theorem scover1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) (y : S1x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x1.size (by sl_kernel_rfl) y
/-- The accumulator after the last point. -/
def sout1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) : Vec F S1x1 .f32 :=
  VS1.read (Elt F) (VS1.writes (Elt F) VS1.junk (kernelRun1_C c i arg2 harg2 arg3 harg3 arg4 harg4 arg5 harg5 hc0 hc1 x0 x1 xs0).2.1)

theorem cover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) (y : S1x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1.size (by sl_kernel_rfl) y
/-- The output's buffer after the last point. -/
def out1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) : Vec F S1x1 .f32 :=
  VO1_2.read (Elt F) (VO1_2.writes (Elt F) VO1_2.junk (kernelRun1_C c i arg2 harg2 arg3 harg3 arg4 harg4 arg5 harg5 hc0 hc1 x0 x1 xs0).1)

/-! ## The accumulation, point by point -/

/-- After the body at position `n`: (the output's buffer, the accumulator). The output's component matters only at the
    last point (elsewhere the window is idle: the accumulator's value stands in). -/
def outsAt1 (c : Dev nD) : (n : ℕ) → n < cfg1.N → Vec F S1x1 .f32 × Vec F S1x1 .f32
  | 0, hn =>
    (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => absurd ((hcond1_1 ⟨0, hn⟩).mp h) (show ¬ (0 : ℕ) = 63 by decide)) (iblk1 V c 0 ⟨0, hn⟩) (iblk1 V c 1 ⟨0, hn⟩))
  | n + 1, hn =>
    if h1 : n + 1 = 63 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2)
    else
      (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : ¬t.val = 63) :
    outsAt1 V c t.val t.isLt =
      (sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
       sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 63) :
    outsAt1 V c t.val t.isLt =
      (sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 63) :
    outsAt1 V c t.val t.isLt =
      (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the accumulator's value is carried from point to point -/

/-- Before the first point the untouched rest at anything; after point `n` the same with the accumulator at what
    point `n` left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms of the two conditions say which case the point is in; the invariant hands
    the body the accumulator at what the point before left (at anything before the first point) and takes it back at
    this point's value; away from the last point the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 63 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    rw [PhiS_castSucc V c t, PhiS_zero V c _ _ h0, PhiA1_eq]
    iintro ⟨⟨⟨R0, R1, R2, R3, R4, R5, R6, R7, R8, R9, HS0⟩, Hg⟩, Ho, ⟨%d0, H0⟩, ⟨%d1, H1⟩, ⟨%d2, H2⟩⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [R0 R1 R2 R3 R4 R5 R6 R7 R8 R9 HS0 Hg]
    · isplitl [R0 R1 R2 R3 R4 R5 R6 R7 R8 R9 HS0]
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      · unfold owns; iexists _; isplitr
        swap; · iexact HS0
        ipureintro; exact View.read_writes_of_cover _ _ _ _ _ (scover1_A c _ _ _ _ _ _ _ _ _ _ _ _ _)
      iexact Hg
    isplitl [Ho]; · iexact Ho
    isplitl [H0]; · iexact H0
    isplitl [H1]; · iexact H1
    iexists _; iexact H2
  · by_cases h1 : t.val = 63
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS_castSucc V c t, PhiS_pos V c _ _ h0]
      iintro ⟨⟨⟨R0, R1, R2, R3, R4, R5, R6, R7, R8, R9, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [R0 R1 R2 R3 R4 R5 R6 R7 R8 R9 HS0 Hg]
      · isplitl [R0 R1 R2 R3 R4 R5 R6 R7 R8 R9 HS0]
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        · unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ h0]
      iintro ⟨⟨⟨R0, R1, R2, R3, R4, R5, R6, R7, R8, R9, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [R0 R1 R2 R3 R4 R5 R6 R7 R8 R9 HS0 Hg]
      · isplitl [R0 R1 R2 R3 R4 R5 R6 R7 R8 R9 HS0]
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        · unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the untouched rest back: the accumulator's value is forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne, PhiA1_eq]
  iintro ⟨⟨R0, R1, R2, R3, R4, R5, R6, R7, R8, R9, HS0⟩, Hg⟩
  isplitl [R0 R1 R2 R3 R4 R5 R6 R7 R8 R9 HS0]
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  · iexists _; iexact HS0
  iexact Hg

end Cert.KernelIdeal.Fr

end
-- ==== Proof.KI_Run.lean ====
/-
  The whole run: the row reductions, the transposition of the column of maxima to a row, the block-by-block sum of
  the hinges, and the quotient by 2^26 — with the contents of every unscoped buffer at each boundary named.

  Between two items every unscoped buffer is held whole at a known contents: the launch memory; then each array of
  the first region at what its write-backs leave; then the host's transposition applied; then the second region's
  one-word output at what its last point writes back; then the host's three closing operations applied. The arguments
  are written by nothing, so they end as launched.
-/
import proofs.«160039_j3642132267438_1_alg».proof.Proof.KI_Reg0
import proofs.«160039_j3642132267438_1_alg».proof.Proof.KI_Reg1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the write-backs leave, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the transposition (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing host operations: the end. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 2).trans (((dat0 (V0 m) c).arrAt_in 2 rfl _).trans (A_eq0 (V0 m) c 2))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (V0 m) c).arrAt_in 1 rfl _).trans (A_eq0 (V0 m) c 1))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2`, left at `W3`; its invariant starts and ends at the untouched rest. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    exact (show _ ⊢ (Pipeline.ΦA spec1 c : sProp 𝕄) from by
      unfold Pipeline.ΦA
      iintro ⟨Hp, -, Hr⟩
      isplitl [Hr]; · iexact Hr
      iexact Hp).trans (hin1 (V2 m) c)
  hout c := by
    rw [Pipeline.ownSems0_none, show (pdats m 1 c).Φ (Fin.last _) = (dat1 (V2 m) c).Φ (Fin.last cfg1.N) from rfl]
    exact (hout1 (V2 m) c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Fr

end
-- ==== Proof.Spec.lean ====
/-
  The pairwise hinge loss, as one function of the three argument arrays.

  For pos, p : [8192, 2048] and neg : [8192, 2048] over the extended reals:
    wpos i   = Σ_l pos (i, l) · p (i, l)                 (the weighted score of row i)
    nmax j   = max_l neg (j, l), from −∞                 (the largest entry of row j)
    pair i j = max ((1 − wpos i) + nmax j, 0)            (the hinge of the pair (i, j))
    hinge    = Σ_i Σ_j pair i j
  and the result is hinge / 2^26. The sum over all pairs may be taken in 8 × 8 blocks of 1024 × 1024 pairs, block
  after block: `part t` is the sum over the pairs of block t = 8 · (row block) + (column block). The float words
  1.0, 0.0, −∞ and 2^26 are kept as words: both programs spell the same ones.
-/
import Idealize.ShloMosaic.PureOps.Ideal
import Idealize.ShloMosaic.Lib.ValueIdx

noncomputable section

namespace Cert.Hinge

open Idealize.ShloMosaic Idealize.ShloMosaic.ValueIdx
open scoped BigOperators

/-- An [8192, 2048] array of extended reals. -/
abbrev Arr : Type := (⟨2, ![8192, 2048]⟩ : Shape).Idx → EReal

/-- The word 1.0. -/
def one : EReal := Ideal.ofBits .f32 0x3F800000#32
/-- The word 0.0. -/
def zero : EReal := Ideal.ofBits .f32 0x00000000#32
/-- The word −∞. -/
def ninf : EReal := Ideal.ofBits .f32 0xFF800000#32

/-- The weighted score of row `i`: Σ_l pos (i, l) · p (i, l). -/
def wpos (pos p : Arr) (i : Fin 8192) : EReal := ∑ l : Fin 2048, pos (ix2 i l) * p (ix2 i l)

/-- The largest entry of row `j` of neg, folded from −∞. -/
def nmax (neg : Arr) (j : Fin 8192) : EReal := (Finset.univ : Finset (Fin 2048)).fold max ninf (fun l => neg (ix2 j l))

/-- The hinge of the pair (i, j): max ((1 − wpos i) + nmax j, 0). -/
def pair (pos neg p : Arr) (i j : Fin 8192) : EReal := max ((one - wpos pos p i) + nmax neg j) zero

/-- The sum of the hinges of all pairs. -/
def hinge (pos neg p : Arr) : EReal := ∑ i : Fin 8192, ∑ j : Fin 8192, pair pos neg p i j

/-- Row `r` of row block `b`. -/
def rowOf (b : Fin 8) (r : Fin 1024) : Fin 8192 := ⟨b.val * 1024 + r.val, by have := b.isLt; have := r.isLt; omega⟩

/-- Block `t` (below 64) has row block t / 8 and column block t % 8. -/
def part (pos neg p : Arr) (t : ℕ) : EReal :=
  if h : t < 64 then
    ∑ r : Fin 1024, ∑ c : Fin 1024,
      pair pos neg p (rowOf ⟨t / 8, by omega⟩ r) (rowOf ⟨t % 8, by omega⟩ c)
  else 0

/-- The scalar result from the sum of the hinges: the quotient by the word 2^26, as the host divides. -/
def tail (h : EReal) : (⟨0, ![]⟩ : Shape).Idx → EReal :=
  Host.divf (F := Ideal) (fun _ => h) (constant (F := Ideal) ⟨0, ![]⟩ .f32 0x4C800000#32)

/-- The result as one function of the argument arrays. -/
def G (pos neg p : Arr) : (⟨0, ![]⟩ : Shape).Idx → EReal := tail (hinge pos neg p)

end Cert.Hinge

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.KI_Val0.lean ====
/-
  The first region's two output columns as whole arrays.

  At grid point t the body stores, for each of its 256 rows r, the sum over the row of the products of pos and p,
  and the maximum over the row of neg folded from −∞; the blocks it reads are rows 256·t … 256·t + 255 of the three
  arrays, and what it writes back is rows 256·t … 256·t + 255 of each column. So what point t writes back is block t
  of ONE column of the whole arrays: the weighted scores of all 8192 rows, respectively the largest entries of all
  8192 rows. Row i lies in the block of point i / 256, and every point writes back; hence after the region the first
  column holds at row i the weighted score of row i, and the second at row j the largest entry of row j of neg.
-/
import proofs.«160039_j3642132267438_1_alg».proof.Proof.KI_Reg0
import proofs.«160039_j3642132267438_1_alg».proof.Proof.Spec
import proofs.«160039_j3642132267438_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Val0

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat Cfg Window)
open scoped BigOperators

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The sum of the products along row r of a block, as the first store's value reads at (r, 0). -/
theorem rowsum_pay (x0 x1 : Vec Ideal S256x2048 .f32) (r : Fin 256) (u : Fin 1) :
    k0_pay1 x0 x1 (ix2 r u) = ∑ l : Fin 2048, x0 (ix2 r l) * x1 (ix2 r l) := by
  unfold k0_pay1
  refine (Cert.LibKeepdims.shapeCast_a_a1_apply _ shapeCasts_S256_S256x1 r u).trans ?_
  exact Cert.LibKeepdims.multiReduction_add_row (mulf x0 x1) 0x00000000#32 reduces_S256x2048_S256 (.inl rfl) rfl r

/-- Every window's block at point t is block (t, 0) of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row r of the block of pos at point t is row 256·t + r of pos. -/
theorem pos_blk (t : Fin cfg0.N) (r : Fin 256) (l : Fin 2048) (i : Fin 8192) (hi : i.val = t.val * 256 + r.val) :
    (iblk0 V c 0 t : Vec Ideal S256x2048 .f32) (ix2 r l) = (V c main_arg0 : S8192x2048.Idx → EReal) (ix2 i l) := by
  obtain ⟨e0, e1, -⟩ := idx_facts t
  unfold iblk0
  rw [View.read_apply]
  show V c main_arg0 (((cfg0.win 0).blk t).view.emb (ix2 r l)) = V c main_arg0 (ix2 i l)
  refine congrArg _ (funext fun a => Fin.ext ?_)
  match a with
  | ⟨0, _⟩ => show win0_0.index t (0 : Fin 2) * 256 + 1 * r.val = i.val; omega
  | ⟨1, _⟩ => show win0_0.index t (1 : Fin 2) * 2048 + 1 * l.val = l.val; omega

/-- Row r of the block of p at point t is row 256·t + r of p. -/
theorem p_blk (t : Fin cfg0.N) (r : Fin 256) (l : Fin 2048) (i : Fin 8192) (hi : i.val = t.val * 256 + r.val) :
    (iblk0 V c 1 t : Vec Ideal S256x2048 .f32) (ix2 r l) = (V c main_arg2 : S8192x2048.Idx → EReal) (ix2 i l) := by
  obtain ⟨-, -, e0, e1, -⟩ := idx_facts t
  unfold iblk0
  rw [View.read_apply]
  show V c main_arg2 (((cfg0.win 1).blk t).view.emb (ix2 r l)) = V c main_arg2 (ix2 i l)
  refine congrArg _ (funext fun a => Fin.ext ?_)
  match a with
  | ⟨0, _⟩ => show win0_1.index t (0 : Fin 2) * 256 + 1 * r.val = i.val; omega
  | ⟨1, _⟩ => show win0_1.index t (1 : Fin 2) * 2048 + 1 * l.val = l.val; omega

/-- Row r of the block of neg at point t is row 256·t + r of neg. -/
theorem neg_blk (t : Fin cfg0.N) (r : Fin 256) (l : Fin 2048) (i : Fin 8192) (hi : i.val = t.val * 256 + r.val) :
    (iblk0 V c 2 t : Vec Ideal S256x2048 .f32) (ix2 r l) = (V c main_arg1 : S8192x2048.Idx → EReal) (ix2 i l) := by
  obtain ⟨-, -, -, -, e0, e1, -⟩ := idx_facts t
  unfold iblk0
  rw [View.read_apply]
  show V c main_arg1 (((cfg0.win 2).blk t).view.emb (ix2 r l)) = V c main_arg1 (ix2 i l)
  refine congrArg _ (funext fun a => Fin.ext ?_)
  match a with
  | ⟨0, _⟩ => show win0_2.index t (0 : Fin 2) * 256 + 1 * r.val = i.val; omega
  | ⟨1, _⟩ => show win0_2.index t (1 : Fin 2) * 2048 + 1 * l.val = l.val; omega

/-- The maximum along row r of a block, folded from −∞, as the second store's value reads at (r, 0). -/
theorem rowmax_pay (x2 : FVec Ideal S256x2048 .f32) (r : Fin 256) (u : Fin 1) :
    k0_pay2 x2 (ix2 r u)
      = (Finset.univ : Finset (Fin 2048)).fold max (Ideal.ofBits .f32 0xFF800000#32) (fun l => x2 (ix2 r l)) := by
  unfold k0_pay2
  refine (Cert.LibKeepdims.shapeCast_a_a1_apply _ shapeCasts_S256_S256x1 r u).trans ?_
  exact Cert.LibKeepdims.multiReduction_max_row x2 0xFF800000#32 reduces_S256x2048_S256 (.inl rfl) rfl r

/-- The column of weighted scores. -/
def scores : S8192x1.Idx → EReal := fun j => Cert.Hinge.wpos (V c main_arg0) (V c main_arg2) ⟨(j 0).val, idx2_lt0 j⟩

/-- A point below the grid's 32. -/
theorem pt_lt (t : Fin cfg0.N) : t.val < 32 := by
  have h : t.val < grid0.N := t.isLt
  rw [N_0] at h
  exact h

/-- What point t writes back into the first column is block t of the weighted scores. -/
theorem flushed3_eq (t : Fin cfg0.N) :
    (dat0 (F := Ideal) V c).flushed 3 t = ((cfg0.win 3).blk t).view.read (Elt Ideal) (scores V c) := by
  show (cfg0.win 3).cut (grid0.coords t) ((dat0 (F := Ideal) V c).after 3 t) = _
  rw [after0_3]
  unfold out0_3
  rw [View.canon_unit_zero hz]
  simp only [View.ld_unit_zero (S := S256x2048) hz]
  obtain ⟨-, -, -, -, -, -, e0, e1, -⟩ := idx_facts t
  funext y
  obtain ⟨r, u, rfl⟩ : ∃ (r : Fin 256) (u : Fin 1), y = ix2 r u := ⟨y 0, y 1, eq_ix2 y⟩
  have ht := pt_lt t
  have hr := r.isLt
  have hu := u.isLt
  have hi : t.val * 256 + r.val < 8192 := by omega
  have hemb : ((cfg0.win 3).blk t).view.emb (ix2 r u) = ix2 (⟨t.val * 256 + r.val, hi⟩ : Fin 8192) (0 : Fin 1) := by
    funext a; apply Fin.ext
    match a with
    | ⟨0, _⟩ => show win0_3.index t (0 : Fin 2) * 256 + 1 * r.val = t.val * 256 + r.val; omega
    | ⟨1, _⟩ => show win0_3.index t (1 : Fin 2) * 1 + 1 * u.val = 0; omega
  show k0_pay1 (iblk0 V c 0 t) (iblk0 V c 1 t) (ix2 r u) = scores V c (((cfg0.win 3).blk t).view.emb (ix2 r u))
  rw [hemb]
  refine (rowsum_pay (iblk0 V c 0 t) (iblk0 V c 1 t) r u).trans ?_
  unfold scores Cert.Hinge.wpos
  refine Finset.sum_congr rfl fun l _ => ?_
  rw [pos_blk V c t r l ⟨t.val * 256 + r.val, hi⟩ rfl, p_blk V c t r l ⟨t.val * 256 + r.val, hi⟩ rfl]

/-- An index of the first column is in point t's block iff each coordinate is in the block's range on its axis. -/
theorem mem_blk3 (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0_0).slice (win0_3.rect t)).set ↔ _
  rw [View.set_slice_whole, Rect.mem_set_unit]
  exact Iff.rfl

/-- After the region the first column holds, at row i, the weighted score of row i. -/
theorem arr0_3 (i : Fin 8192) :
    ((dat0 (F := Ideal) V c).arrAt 3 cfg0.N : S8192x1.Idx → EReal) (ix2 i (0 : Fin 1)) = Cert.Hinge.wpos (V c main_arg0) (V c main_arg2) i := by
  have hi := i.isLt
  have ht : i.val / 256 < cfg0.N := by show i.val / 256 < grid0.N; rw [N_0]; omega
  refine ((dat0 (F := Ideal) V c).arrAt_apply_of_mem 3 (scores V c) (fun t _ => flushed3_eq V c t) cfg0.N ⟨i.val / 256, ht⟩
    (ix2 i (0 : Fin 1)) ht (flush0_3 _) ?_).trans rfl
  rw [mem_blk3]
  obtain ⟨-, -, -, -, -, -, e0, e1, -⟩ := idx_facts ⟨i.val / 256, ht⟩
  have e0' : win0_3.index ⟨i.val / 256, ht⟩ (0 : Fin 2) = i.val / 256 := e0
  intro a
  match a with
  | ⟨0, _⟩ =>
    show win0_3.index ⟨i.val / 256, ht⟩ (0 : Fin 2) * 256 ≤ i.val ∧ i.val < win0_3.index ⟨i.val / 256, ht⟩ (0 : Fin 2) * 256 + 256
    omega
  | ⟨1, _⟩ =>
    show win0_3.index ⟨i.val / 256, ht⟩ (1 : Fin 2) * 1 ≤ 0 ∧ 0 < win0_3.index ⟨i.val / 256, ht⟩ (1 : Fin 2) * 1 + 1
    omega

/-- The column of row maxima. -/
def maxima : S8192x1.Idx → EReal := fun j => Cert.Hinge.nmax (V c main_arg1) ⟨(j 0).val, idx2_lt0 j⟩

/-- What point t writes back into the second column is block t of the row maxima. -/
theorem flushed4_eq (t : Fin cfg0.N) :
    (dat0 (F := Ideal) V c).flushed 4 t = ((cfg0.win 4).blk t).view.read (Elt Ideal) (maxima V c) := by
  show (cfg0.win 4).cut (grid0.coords t) ((dat0 (F := Ideal) V c).after 4 t) = _
  rw [after0_4]
  unfold out0_4
  rw [View.canon_unit_zero hz]
  simp only [View.ld_unit_zero (S := S256x2048) hz]
  obtain ⟨-, -, -, -, -, -, -, -, e0, e1⟩ := idx_facts t
  funext y
  obtain ⟨r, u, rfl⟩ : ∃ (r : Fin 256) (u : Fin 1), y = ix2 r u := ⟨y 0, y 1, eq_ix2 y⟩
  have ht := pt_lt t
  have hr := r.isLt
  have hu := u.isLt
  have hi : t.val * 256 + r.val < 8192 := by omega
  have hemb : ((cfg0.win 4).blk t).view.emb (ix2 r u) = ix2 (⟨t.val * 256 + r.val, hi⟩ : Fin 8192) (0 : Fin 1) := by
    funext a; apply Fin.ext
    match a with
    | ⟨0, _⟩ => show win0_4.index t (0 : Fin 2) * 256 + 1 * r.val = t.val * 256 + r.val; omega
    | ⟨1, _⟩ => show win0_4.index t (1 : Fin 2) * 1 + 1 * u.val = 0; omega
  show k0_pay2 (iblk0 V c 2 t) (ix2 r u) = maxima V c (((cfg0.win 4).blk t).view.emb (ix2 r u))
  rw [hemb]
  refine (rowmax_pay (iblk0 V c 2 t) r u).trans ?_
  unfold maxima Cert.Hinge.nmax Cert.Hinge.ninf
  refine Finset.fold_congr fun l _ => ?_
  exact neg_blk V c t r l ⟨t.val * 256 + r.val, hi⟩ rfl

/-- An index of the second column is in point t's block iff each coordinate is in the block's range on its axis. -/
theorem mem_blk4 (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v0_1).slice (win0_4.rect t)).set ↔ _
  rw [View.set_slice_whole, Rect.mem_set_unit]
  exact Iff.rfl

/-- After the region the second column holds, at row j, the largest entry of row j of neg. -/
theorem arr0_4 (j : Fin 8192) :
    ((dat0 (F := Ideal) V c).arrAt 4 cfg0.N : S8192x1.Idx → EReal) (ix2 j (0 : Fin 1)) = Cert.Hinge.nmax (V c main_arg1) j := by
  have hj := j.isLt
  have ht : j.val / 256 < cfg0.N := by show j.val / 256 < grid0.N; rw [N_0]; omega
  refine ((dat0 (F := Ideal) V c).arrAt_apply_of_mem 4 (maxima V c) (fun t _ => flushed4_eq V c t) cfg0.N ⟨j.val / 256, ht⟩
    (ix2 j (0 : Fin 1)) ht (flush0_4 _) ?_).trans rfl
  rw [mem_blk4]
  obtain ⟨-, -, -, -, -, -, -, -, e0, e1⟩ := idx_facts ⟨j.val / 256, ht⟩
  have e0' : win0_4.index ⟨j.val / 256, ht⟩ (0 : Fin 2) = j.val / 256 := e0
  intro a
  match a with
  | ⟨0, _⟩ =>
    show win0_4.index ⟨j.val / 256, ht⟩ (0 : Fin 2) * 256 ≤ j.val ∧ j.val < win0_4.index ⟨j.val / 256, ht⟩ (0 : Fin 2) * 256 + 256
    omega
  | ⟨1, _⟩ =>
    show win0_4.index ⟨j.val / 256, ht⟩ (1 : Fin 2) * 1 ≤ 0 ∧ 0 < win0_4.index ⟨j.val / 256, ht⟩ (1 : Fin 2) * 1 + 1
    omega

end Cert.KernelIdeal.Val0

end
-- ==== Proof.KI_Val1.lean ====
/-
  The second region's pieces, read back as values: whatever the values are, a middle point leaves in the accumulator
  the payload of (the column block, the row block, what the accumulator held); the first point the same over the zero
  word it has just stored; the last point the same, and copies it to the output.
-/
import proofs.«160039_j3642132267438_1_alg».proof.Proof.KI_Reg1
import Idealize.ShloMosaic.Lib.Pipeline.Value

set_option maxRecDepth 16384

noncomputable section

namespace Cert.KernelIdeal.Val1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Fr

theorem hz : (![0, 0] : Fin 2 → Nat) = fun _ => 0 := funext fun a => by fin_cases a <;> rfl

/-- A MIDDLE POINT: the accumulator gains the block's sum. -/
theorem sout_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x1 .f32) (x1 : Vec F S1x1024 .f32) (xs0 : Vec F S1x1 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  rw [View.canon_unit_zero hz]
  simp only [View.readAt_eq_ld, harg2.read_unread, harg3.read_unread, harg5.read_unread, View.ld_unit_zero (S := S1024x1) hz, View.ld_unit_zero (S := S1x1024) hz, View.ld_unit_zero (S := S1x1) hz]

/-- THE FIRST POINT: the zero word is stored, read back, and the block's sum added to it. -/
theorem sout_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x1 .f32) (x1 : Vec F S1x1024 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1x1) hz, View.readCov_unit_zero (S := S1x1) _ hz]
  simp only [View.readAt_eq_ld, harg2.read_unread, harg3.read_unread, View.ld_unit_zero (S := S1024x1) hz, View.ld_unit_zero (S := S1x1024) hz, View.ld_unit_zero (S := S1x1) hz]

/-- THE LAST POINT, the accumulator: as at a middle point. -/
theorem sout_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero hz]
  simp only [View.readAt_eq_ld, harg2.read_unread, harg3.read_unread, harg5.read_unread, View.ld_unit_zero (S := S1024x1) hz, View.ld_unit_zero (S := S1x1024) hz, View.ld_unit_zero (S := S1x1) hz]

/-- THE LAST POINT, the output: the accumulator's new value, copied. -/
theorem out_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x1 .f32) (x1 : Vec F S1x1024 .f32) (xs0 : Vec F S1x1 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz, View.readCov_unit_zero (S := S1x1) _ hz]
  simp only [View.readAt_eq_ld, harg2.read_unread, harg3.read_unread, harg5.read_unread, View.ld_unit_zero (S := S1024x1) hz, View.ld_unit_zero (S := S1x1024) hz, View.ld_unit_zero (S := S1x1) hz]

/-! ## The accumulator, point by point, in closed form -/

variable (V : (c : Dev nD) → (b : Ref sig .tc) → Buf (Elt F) ((c : Thread nD τ).loc b))

/-- After point `n`: the payload of point `n`'s two blocks over what point `n − 1` left, from the zero word. -/
def chain (c : Dev nD) : (n : ℕ) → n < cfg1.N → Vec F S1x1 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (chain c n (Nat.lt_of_succ_lt h))

/-- What the accumulator holds after point `n` is the closed form: by induction on the point. -/
theorem outsAt_snd (c : Dev nD) : ∀ (n : ℕ) (h : n < cfg1.N), (outsAt1 V c n h).2 = chain V c n h
  | 0, h => by
    rw [outsAt1_A V c ⟨0, h⟩ rfl (show ¬ (0 : ℕ) = 63 by decide)]
    dsimp only
    exact sout_A (F := F) c _ _ _ _ _ _ _ _ _ _ _ _ _
  | n + 1, h => by
    by_cases h1 : n + 1 = 63
    · rw [outsAt1_C V c ⟨n + 1, h⟩ (Nat.succ_ne_zero n) h1]
      dsimp only
      rw [sout_C]
      show k1_pay2 _ _ (outsAt1 V c n _).2 = k1_pay2 _ _ (chain V c n _)
      rw [outsAt_snd c n]
    · rw [outsAt1_B V c ⟨n + 1, h⟩ (Nat.succ_ne_zero n) h1]
      dsimp only
      rw [sout_B]
      show k1_pay2 _ _ (outsAt1 V c n _).2 = k1_pay2 _ _ (chain V c n _)
      rw [outsAt_snd c n]

/-- The last point. -/
abbrev t63 : Fin cfg1.N := ⟨63, by rw [show cfg1.N = 64 from N_1]; decide⟩

/-- At the last point the output's buffer holds the closed form too. -/
theorem outsAt_fst_last (c : Dev nD) : (outsAt1 V c 63 t63.isLt).1 = chain V c 63 t63.isLt := by
  rw [outsAt1_C V c t63 (show ¬ (63 : ℕ) = 0 by decide) rfl]
  dsimp only
  rw [out_C]
  show k1_pay2 _ _ (outsAt1 V c 62 _).2 = k1_pay2 _ _ (chain V c 62 _)
  rw [outsAt_snd V c 62]

/-- The one write-back, at the last point, writes the closed form: the block is the whole one-word array. -/
theorem flushed1_2 (c : Dev nD) (t : Fin cfg1.N) (hf : (cfg1.win 2).flush t = true) :
    (dat1 V c).flushed 2 t = ((cfg1.win 2).blk t).view.read (Elt F) (chain V c 63 t63.isLt) := by
  have hN : cfg1.N = 64 := N_1
  have h3 : t.val = 63 := by have := (flush1_2 t).mp hf; have := t.isLt; omega
  obtain rfl : t = t63 := Fin.ext h3
  show (cfg1.win 2).cut (grid1.coords t63) ((dat1 V c).after 2 t63) = _
  rw [after1_2, outsAt_fst_last]
  have hz' : (fun a => win1_2.index t63 a * main_v2.ty.shape.size a) = fun _ => 0 := funext fun a => by fin_cases a <;> decide
  exact (Memref.read_access_unit_zero (Elt F) main_v2 hz' (fun a => by rw [congrFun hz' a]; simp) (chain V c 63 t63.isLt)).symm

/-- So the one-word output array ends holding the closed form after the last point. -/
theorem final1_2 (c : Dev nD) : (dat1 V c).arrAt 2 cfg1.N = chain V c 63 t63.isLt :=
  (dat1 V c).arrAt_eq_of_cover 2 (chain V c 63 t63.isLt) (flushed1_2 V c) fun i =>
    ⟨t63, (flush1_2 t63).mpr rfl, by
      show i ∈ ((View.whole main_v2).slice (win1_2.rect t63)).set
      rw [View.set_slice_whole, Rect.mem_set_unit]
      intro a
      have h0 : (i 0 : Nat) < 1 := (i 0).isLt
      have h1 : (i 1 : Nat) < 1 := (i 1).isLt
      match a with
      | ⟨0, _⟩ => show win1_2.index t63 0 * win1_2.size 0 ≤ (i 0 : Nat) ∧ (i 0 : Nat) < win1_2.index t63 0 * win1_2.size 0 + win1_2.xsize (grid1.coords t63) 0
                  rw [show win1_2.index t63 0 * win1_2.size 0 = 0 from by decide +kernel, show win1_2.xsize (grid1.coords t63) 0 = 1 from by decide +kernel]; omega
      | ⟨1, _⟩ => show win1_2.index t63 1 * win1_2.size 1 ≤ (i 1 : Nat) ∧ (i 1 : Nat) < win1_2.index t63 1 * win1_2.size 1 + win1_2.xsize (grid1.coords t63) 1
                  rw [show win1_2.index t63 1 * win1_2.size 1 = 0 from by decide +kernel, show win1_2.xsize (grid1.coords t63) 1 = 1 from by decide +kernel]; omega⟩

end Cert.KernelIdeal.Val1

end
-- ==== Proof.KI_Val1b.lean ====
/-
  The second region's accumulator over the extended reals: after point n it holds the sum of the hinges of the
  blocks 0 … n.

  One step adds, to what the accumulator held, Σ_r Σ_c max ((1 − s_r) + m_c, 0) over the 1024 entries s of the point's
  column block and the 1024 entries m of its row block: the broadcasts spread the column along the lanes and the row
  along the sublanes, the lane sum and then the sublane sum add the 1024 × 1024 hinges up. Block t's column block is
  rows 1024 · (t / 8) … of the column of row scores, its row block columns 1024 · (t % 8) … of the row of row maxima.
-/
import proofs.«160039_j3642132267438_1_alg».proof.Proof.KI_Val1
import proofs.«160039_j3642132267438_1_alg».proof.Proof.Spec
import proofs.«160039_j3642132267438_1_alg».proof.Proof.LibKeepdims
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.LibKeepdims
open scoped BigOperators

/-- The reduced index 0 of a reduction of an [a, 1] column along axis 0, with coordinate k put back, is (k, 0). -/
theorem lift_col {a : ℕ} (h : (⟨2, ![a, 1]⟩ : Shape).Reduces [0] ⟨1, ![1]⟩)
    (k : Fin ((⟨2, ![a, 1]⟩ : Shape).size 0)) : h.lift (ix1 (0 : Fin 1)) k = ix2 (⟨k.val, k.isLt⟩ : Fin a) (0 : Fin 1) := by
  funext c; apply Fin.ext
  match c with
  | ⟨0, _⟩ => rfl
  | ⟨1, _⟩ => rfl

/-- A sum of an [a, 1] column along axis 0: the sum of its entries. -/
theorem multiReduction_add_col {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin a, src (ix2 k (0 : Fin 1)) :=
  (Ideal.multiReduction_add_single src acc h hφ hacc (ix1 (0 : Fin 1))).trans
    (Finset.sum_congr rfl fun k _ => congrArg src (lift_col h k))

/-- ONE STEP: the accumulator plus the sum of the 1024 × 1024 hinges of the two blocks. -/
theorem pay2_apply (x0 : FVec Ideal S1024x1 .f32) (x1 : FVec Ideal S1x1024 .f32) (acc : FVec Ideal S1x1 .f32) :
    k1_pay2 (F := Ideal) x0 x1 acc (ix2 (0 : Fin 1) (0 : Fin 1))
      = acc (ix2 (0 : Fin 1) (0 : Fin 1)) + ∑ r : Fin 1024, ∑ cc : Fin 1024,
          max ((Cert.Hinge.one - x0 (ix2 r (0 : Fin 1))) + x1 (ix2 (0 : Fin 1) cc)) Cert.Hinge.zero := by
  unfold k1_pay2
  dsimp only
  rw [shapeCast_self, addf_apply]
  refine congrArg (acc (ix2 (0 : Fin 1) (0 : Fin 1)) + ·) ?_
  refine (shapeCast_a_a1_apply _ _ (0 : Fin 1) (0 : Fin 1)).trans ?_
  refine (multiReduction_add_col _ _ _ _ _).trans ?_
  refine Finset.sum_congr rfl fun r _ => ?_
  refine (shapeCast_a_a1_apply _ _ r (0 : Fin 1)).trans ?_
  refine (multiReduction_add_row _ _ _ _ _ r).trans ?_
  refine Finset.sum_congr rfl fun cc _ => ?_
  rw [maximumf_apply, addf_apply, broadcast_apply]
  refine congrArg₂ max (congrArg₂ (· + ·) ?_ ?_) rfl
  · refine (broadcastTo_a1_ab_apply _ _ r cc).trans ?_
    rw [subf_apply, broadcast_apply, shapeCast_self]
    rfl
  · refine (broadcastTo_1b_ab_apply _ _ r cc).trans ?_
    rw [shapeCast_self]

/-- The word the first point stores is 0. -/
theorem pay1_apply : k1_pay1 (F := Ideal) (ix2 (0 : Fin 1) (0 : Fin 1)) = 0 := by
  unfold k1_pay1
  rw [shapeCast_self, broadcast_apply]
  exact Ideal.ofBits_zero_f32

/-! ## The blocks, read off their arrays -/

/-- Where the two input windows' blocks sit, at every point. -/
theorem idx1 : ∀ t : Fin cfg1.N, win1_0.index t 0 = t.val / 8 ∧ win1_0.index t 1 = 0 ∧ win1_1.index t 0 = 0 ∧ win1_1.index t 1 = t.val % 8 :=
  (by decide +kernel : ∀ t : Fin grid1.N, win1_0.index t 0 = t.val / 8 ∧ win1_0.index t 1 = 0 ∧ win1_1.index t 0 = 0 ∧ win1_1.index t 1 = t.val % 8)

variable (V : (c : Dev nD) → (b : Ref sig .tc) → Buf (Elt Ideal) ((c : Thread nD τ).loc b)) (c : Dev nD)

theorem lt8_div (t : Fin cfg1.N) : t.val / 8 < 8 := by have := t.isLt; have hN : cfg1.N = 64 := N_1; omega
theorem lt8_mod (t : Fin cfg1.N) : t.val % 8 < 8 := by omega

/-- Entry r of the column block at point t is entry 1024 · (t / 8) + r of the column of row scores. -/
theorem iblk1_0_apply (t : Fin cfg1.N) (r : Fin 1024) :
    (iblk1 V c 0 t : FVec Ideal S1024x1 .f32) (ix2 r (0 : Fin 1))
      = (V c main_v0_0 : S8192x1.Idx → EReal) (ix2 (Cert.Hinge.rowOf ⟨t.val / 8, lt8_div t⟩ r) (0 : Fin 1)) := by
  unfold iblk1
  rw [View.read_apply]
  show V c main_v0_0 _ = V c main_v0_0 _
  refine congrArg (V c main_v0_0) ?_
  funext a
  apply Fin.ext
  match a with
  | ⟨0, _⟩ =>
    show win1_0.index t 0 * 1024 + 1 * r.val = t.val / 8 * 1024 + r.val
    rw [(idx1 t).1]; omega
  | ⟨1, _⟩ =>
    show win1_0.index t 1 * 1 + 1 * 0 = 0
    rw [(idx1 t).2.1]

/-- Entry cc of the row block at point t is entry 1024 · (t % 8) + cc of the row of row maxima. -/
theorem iblk1_1_apply (t : Fin cfg1.N) (cc : Fin 1024) :
    (iblk1 V c 1 t : FVec Ideal S1x1024 .f32) (ix2 (0 : Fin 1) cc)
      = (V c main_v1 : S1x8192.Idx → EReal) (ix2 (0 : Fin 1) (Cert.Hinge.rowOf ⟨t.val % 8, lt8_mod t⟩ cc)) := by
  unfold iblk1
  rw [View.read_apply]
  show V c main_v1 _ = V c main_v1 _
  refine congrArg (V c main_v1) ?_
  funext a
  apply Fin.ext
  match a with
  | ⟨0, _⟩ =>
    show win1_1.index t 0 * 1 + 1 * 0 = 0
    rw [(idx1 t).2.2.1]
  | ⟨1, _⟩ =>
    show win1_1.index t 1 * 1024 + 1 * cc.val = t.val % 8 * 1024 + cc.val
    rw [(idx1 t).2.2.2]; omega

/-! ## The accumulator is the running sum of the blocks' parts -/

variable (pos neg p : Cert.Hinge.Arr)
  (hV0 : ∀ i : Fin 8192, (V c main_v0_0 : S8192x1.Idx → EReal) (ix2 i (0 : Fin 1)) = Cert.Hinge.wpos pos p i)
  (hV1 : ∀ j : Fin 8192, (V c main_v1 : S1x8192.Idx → EReal) (ix2 (0 : Fin 1) j) = Cert.Hinge.nmax neg j)

include hV0 hV1 in
/-- One step at point t adds block t's part. -/
theorem step_apply (t : Fin cfg1.N) (acc : FVec Ideal S1x1 .f32) :
    k1_pay2 (F := Ideal) (iblk1 V c 0 t) (iblk1 V c 1 t) acc (ix2 (0 : Fin 1) (0 : Fin 1))
      = acc (ix2 (0 : Fin 1) (0 : Fin 1)) + Cert.Hinge.part pos neg p t.val := by
  have ht : t.val < 64 := lt_of_lt_of_eq t.isLt N_1
  rw [pay2_apply]
  refine congrArg (acc (ix2 (0 : Fin 1) (0 : Fin 1)) + ·) ?_
  unfold Cert.Hinge.part
  rw [dif_pos ht]
  refine Finset.sum_congr rfl fun r _ => Finset.sum_congr rfl fun cc _ => ?_
  rw [iblk1_0_apply V c t r, iblk1_1_apply V c t cc, hV0, hV1]
  rfl

include hV0 hV1 in
/-- After point n the accumulator holds the sum of the parts of the blocks 0 … n. -/
theorem chain_apply : ∀ (n : ℕ) (h : n < cfg1.N),
    chain (F := Ideal) V c n h (ix2 (0 : Fin 1) (0 : Fin 1)) = ∑ t ∈ Finset.range (n + 1), Cert.Hinge.part pos neg p t
  | 0, h => by
    show k1_pay2 (F := Ideal) (iblk1 V c 0 ⟨0, h⟩) (iblk1 V c 1 ⟨0, h⟩) (k1_pay1 (F := Ideal)) _ = _
    rw [step_apply V c pos neg p hV0 hV1 ⟨0, h⟩, pay1_apply, zero_add, Finset.sum_range_one]
  | n + 1, h => by
    show k1_pay2 (F := Ideal) (iblk1 V c 0 ⟨n + 1, h⟩) (iblk1 V c 1 ⟨n + 1, h⟩) (chain V c n _) _ = _
    rw [step_apply V c pos neg p hV0 hV1 ⟨n + 1, h⟩, chain_apply n, Finset.sum_range_succ _ (n + 1)]

end Cert.KernelIdeal.Val1

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.BlockSum.lean ====
/-
  The sum of the hinges over all pairs, taken block after block.

  The 8192 rows are 8 blocks of 1024 rows, and so are the 8192 columns: a sum over all rows is the sum over the
  row blocks of the sums inside a block, and likewise for the columns. Exchanging the sum over the rows of a block
  with the sum over the column blocks puts the two block indices outside, and the 8 × 8 pairs of blocks, numbered
  t = 8 · (row block) + (column block), are the numbers below 64. Only the commutative-monoid laws of + on the
  extended reals are used, so nothing here asks the hinges to be finite.
-/
import proofs.«160039_j3642132267438_1_alg».proof.Proof.Spec
import proofs.«160039_j3642132267438_1_alg».proof.Proof.LibBlockSumN

noncomputable section

namespace Cert.Hinge

open scoped BigOperators

/-- The sum over all pairs is the sum over the row blocks and the column blocks of the sums inside a block pair. -/
theorem hinge_eq_blocks (pos neg p : Arr) :
    hinge pos neg p
      = ∑ bi : Fin 8, ∑ bj : Fin 8, ∑ r : Fin 1024, ∑ c : Fin 1024, pair pos neg p (rowOf bi r) (rowOf bj c) := by
  unfold hinge
  rw [Cert.BlockSumN.sum_blocks_of_eq 8 1024 (by norm_num) (fun i => ∑ j : Fin 8192, pair pos neg p i j)]
  refine Finset.sum_congr rfl fun bi _ => ?_
  show ∑ r : Fin 1024, ∑ j : Fin 8192, pair pos neg p (rowOf bi r) j
    = ∑ bj : Fin 8, ∑ r : Fin 1024, ∑ c : Fin 1024, pair pos neg p (rowOf bi r) (rowOf bj c)
  have hrow : ∀ r : Fin 1024, ∑ j : Fin 8192, pair pos neg p (rowOf bi r) j
      = ∑ bj : Fin 8, ∑ c : Fin 1024, pair pos neg p (rowOf bi r) (rowOf bj c) := fun r =>
    Cert.BlockSumN.sum_blocks_of_eq 8 1024 (by norm_num) (fun j => pair pos neg p (rowOf bi r) j)
  rw [Finset.sum_congr rfl fun r _ => hrow r]
  exact Finset.sum_comm

/-- Block 8 · bi + bj is the block pair (bi, bj). -/
theorem part_block (pos neg p : Arr) (bi bj : Fin 8) :
    part pos neg p (bi.val * 8 + bj.val)
      = ∑ r : Fin 1024, ∑ c : Fin 1024, pair pos neg p (rowOf bi r) (rowOf bj c) := by
  have hb := bi.isLt
  have hc := bj.isLt
  have ht : bi.val * 8 + bj.val < 64 := by omega
  have e1 : ∀ h : (bi.val * 8 + bj.val) / 8 < 8, (⟨(bi.val * 8 + bj.val) / 8, h⟩ : Fin 8) = bi :=
    fun _ => Fin.ext (by show (bi.val * 8 + bj.val) / 8 = bi.val; omega)
  have e2 : ∀ h : (bi.val * 8 + bj.val) % 8 < 8, (⟨(bi.val * 8 + bj.val) % 8, h⟩ : Fin 8) = bj :=
    fun _ => Fin.ext (by show (bi.val * 8 + bj.val) % 8 = bj.val; omega)
  unfold part
  rw [dif_pos ht, e1, e2]

/-- The sum over all pairs is the sum of the 64 blocks' parts. -/
theorem hinge_eq_parts (pos neg p : Arr) :
    hinge pos neg p = ∑ t ∈ Finset.range 64, part pos neg p t := by
  rw [hinge_eq_blocks, Finset.sum_range,
    Cert.BlockSumN.sum_blocks_of_eq 8 8 (by norm_num) (fun t : Fin 64 => part pos neg p t.val)]
  exact Finset.sum_congr rfl fun bi _ => Finset.sum_congr rfl fun bj _ => (part_block pos neg p bi bj).symm

end Cert.Hinge

end
-- ==== Proof.KI_Value.lean ====
/-
  The kernel's result over the extended reals: the quotient by 2^26 of the sum of the hinges of all pairs.

  The first region leaves the column of row scores and the column of row maxima; the host transposes the second to a
  row; so the second region finds, at entry i of the column, the score of row i, and at entry j of the row, the maximum
  of row j. Its accumulator after the last point is then the sum of the parts of all 64 blocks, which is the sum over
  all pairs; the output word holds it, the host reshapes the word to a scalar and divides it by the word 2^26.
-/
import proofs.«160039_j3642132267438_1_alg».proof.Proof.KI_Run
import proofs.«160039_j3642132267438_1_alg».proof.Proof.KI_Val0
import proofs.«160039_j3642132267438_1_alg».proof.Proof.KI_Val1b
import proofs.«160039_j3642132267438_1_alg».proof.Proof.BlockSum
import proofs.«160039_j3642132267438_1_alg».proof.Proof.Spec
import Idealize.ShloMosaic.Lib.StableHlo.Run

set_option maxRecDepth 16384

noncomputable section

namespace Cert.KernelIdeal.Val

open Cert.KernelIdeal Cert.KernelIdeal.Gen Cert.KernelIdeal.Fr Cert.KernelIdeal.Val0 Cert.KernelIdeal.Val1
open Idealize.ShloMosaic Idealize.ShloMosaic.TcCoe Idealize.ShloMosaic.ValueIdx Idealize.SL.Sem Idealize.ShloMosaic.StableHlo
open Idealize.ShloMosaic.Pipeline (Dat)
open scoped BigOperators

variable (m : (ℓ : Loc nD τ sig) → Buf (Elt Ideal) ℓ) (ρ : Dev nD → PrngReg) (c : Dev nD)

/-- The three arguments as launched: pos, neg, p. -/
abbrev pos : Cert.Hinge.Arr := m ((c : Thread nD τ).loc main_arg0)
abbrev neg : Cert.Hinge.Arr := m ((c : Thread nD τ).loc main_arg1)
abbrev pw : Cert.Hinge.Arr := m ((c : Thread nD τ).loc main_arg2)

/-- The second region finds, at entry i of the column of row scores, the score of row i. -/
theorem V2_scores (i : Fin 8192) :
    (V2 m c main_v0_0 : S8192x1.Idx → EReal) (ix2 i (0 : Fin 1)) = Cert.Hinge.wpos (pos m c) (pw m c) i := by
  have e : V2 m c main_v0_0 = (dat0 (F := Ideal) (V0 m) c).arrAt 3 cfg0.N := by
    show StableHlo.after hostOps1 (W1 m c) (Proc.devRef .tc main_v0_0) = _
    after_results
    exact W1_arr m c 3
  exact (congrFun e _).trans (arr0_3 (V0 m) c i)

/-- And at entry j of the transposed row of row maxima, the maximum of row j. -/
theorem V2_maxima (j : Fin 8192) :
    (V2 m c main_v1 : S1x8192.Idx → EReal) (ix2 (0 : Fin 1) j) = Cert.Hinge.nmax (neg m c) j := by
  have e : V2 m c main_v1 = transpose S1x8192 [1, 0] ((dat0 (F := Ideal) (V0 m) c).arrAt 4 cfg0.N) transposes_S8192x1_S1x8192_1_0 := by
    show StableHlo.after hostOps1 (W1 m c) (Proc.devRef .tc main_v1) = _
    after_results
    exact congrArg (fun x => transpose S1x8192 [1, 0] x transposes_S8192x1_S1x8192_1_0) (W1_arr m c 4)
  refine (congrFun e _).trans ?_
  refine (transpose_apply [1, 0] _ _ (ix2 (0 : Fin 1) j) (ix2 j (0 : Fin 1)) fun b => ?_).trans (arr0_4 (V0 m) c j)
  match b with
  | ⟨0, _⟩ => rfl
  | ⟨1, _⟩ => rfl

/-- The scalar result at the end: the specification's function of the arguments. -/
theorem W4_result : W4 m c (Proc.devRef .tc main_v4) = Cert.Hinge.G (pos m c) (neg m c) (pw m c) := by
  have e3 : W3 m c (Proc.devRef .tc main_v2) = chain (F := Ideal) (V2 m) c 63 t63.isLt :=
    (W3_arr m c 2).trans (final1_2 (V2 m) c)
  have e : W4 m c (Proc.devRef .tc main_v4)
      = Host.divf (F := Ideal) (shapeCast S_ (W3 m c (Proc.devRef .tc main_v2)) shapeCasts_S1x1_S_) (constant (F := Ideal) S_ .f32 0x4C800000#32) := by
    show StableHlo.after hostOps2 (W3 m c) (Proc.devRef .tc main_v4) = _
    after_results
    rfl
  rw [e, e3]
  unfold Cert.Hinge.G Cert.Hinge.tail
  refine congrArg (fun x => Host.divf (F := Ideal) x (constant (F := Ideal) S_ .f32 0x4C800000#32)) ?_
  funext i
  refine (shapeCast_apply _ _ i (ix2 (0 : Fin 1) (0 : Fin 1)) ?_).trans ?_
  · have h1 : ((S1x1 : Shape).rowMajor (ix2 (0 : Fin 1) (0 : Fin 1))).val < 1 :=
      lt_of_lt_of_eq ((S1x1 : Shape).rowMajor (ix2 (0 : Fin 1) (0 : Fin 1))).isLt (by decide)
    have h2 : ((S_ : Shape).rowMajor i).val < 1 := lt_of_lt_of_eq ((S_ : Shape).rowMajor i).isLt (by decide)
    exact (Nat.lt_one_iff.mp h1).trans (Nat.lt_one_iff.mp h2).symm
  · rw [chain_apply (V2 m) c (pos m c) (neg m c) (pw m c) (V2_scores m c) (V2_maxima m c) 63 t63.isLt]
    exact (Cert.Hinge.hinge_eq_parts _ _ _).symm

/-- THE RUN, READ: every weakly fair execution terminates with the result at the specification's function of the
    arguments and the arguments as launched. -/
theorem run : θ_run defs (onTc (τ := τ) (main (F := Ideal))) ⟨m, fun _ => 0, ρ⟩ (fun r => ∀ c : Dev nD,
      r.2.mem ((c.tc : Thread nD τ).loc main_v4) = Cert.Hinge.G (pos m c) (neg m c) (pw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W4_result m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all (F := Ideal) m ρ)

end Cert.KernelIdeal.Val

end
-- ==== Proof.RefSide.lean ====
/-
  The reference program computes the specification.

  Read stage by stage at an index: the product of pos and p summed along a row is the weighted score of the row
  (the sum starts from the word 0.0, which is zero); the maximum of neg along a row, folded from the word −∞, is
  the row's largest entry; the column of 1 − score broadcast along the columns plus the row of maxima broadcast
  along the rows, cut below at the word 0.0, is the hinge of the pair at (i, j); the sum over both axes, again from
  zero, is the sum over i of the sums over j; and the quotient by the word 2^26 is the same operation on both sides.
-/
import proofs.«160039_j3642132267438_1_alg».proof.Proof.Gen.ReferenceIdeal.Read
import proofs.«160039_j3642132267438_1_alg».proof.Proof.Spec
import proofs.«160039_j3642132267438_1_alg».proof.Proof.LibKeepdims

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The row sums of pos · p: at row r, the weighted score of the row. -/
theorem rowsum_at (a0 a2 : FVec Ideal S8192x2048 .f32) (r : Fin 8192) :
    Read.val_main_v1 (F := Ideal) a0 a2 (ix1 r) = Cert.Hinge.wpos a0 a2 r := by
  have e : ∀ k : Fin 2048, Read.idx_main_v1 (ix1 r) k = ix2 r k := fun k =>
    funext fun a => Fin.ext (by match a with | ⟨0, _⟩ => rfl | ⟨1, _⟩ => rfl)
  rw [Read.val_main_v1_apply, Read.val_main_cst_apply, Ideal.ofBits_def, Ideal.ofBits_zero_f32, zero_add]
  unfold Cert.Hinge.wpos
  refine Finset.sum_congr rfl fun k _ => ?_
  rw [Read.val_main_v0_apply, Ideal.mulf_def, e]

/-- The row maxima of neg: at row r, the largest entry of the row, folded from −∞. -/
theorem rowmax_at (a1 : FVec Ideal S8192x2048 .f32) (r : Fin 8192) :
    Read.val_main_v2 (F := Ideal) a1 (ix1 r) = Cert.Hinge.nmax a1 r := by
  unfold Read.val_main_v2
  refine (Cert.LibKeepdims.hostReduce_max_row a1 (Read.val_main_cst_0 (F := Ideal)) reducesTo_S8192x2048_S8192_d1
    (by decide) h_S_ r).trans ?_
  rw [Read.val_main_cst_0_apply, Ideal.ofBits_def]
  rfl

/-- The matrix before the last sum: at (i, j), the hinge of the pair. -/
theorem pair_at (a0 a1 a2 : FVec Ideal S8192x2048 .f32) (i j : Fin 8192) :
    Read.val_main_v11 (F := Ideal) a0 a1 a2 (ix2 i j) = Cert.Hinge.pair a0 a1 a2 i j := by
  have e3 : Read.idx_main_v3 (Read.idx_main_v7 (ix2 i j)) = ix1 i :=
    funext fun a => Fin.ext (by match a with | ⟨0, _⟩ => rfl)
  have e6 : Read.idx_main_v6 (Read.idx_main_v8 (ix2 i j)) = ix1 j :=
    funext fun a => Fin.ext (by match a with | ⟨0, _⟩ => rfl)
  rw [Read.val_main_v11_apply, Read.val_main_v9_apply, Read.val_main_v10_apply, Read.val_main_cst_2_apply,
    Read.val_main_v7_apply, Read.val_main_v5_apply, Read.val_main_v4_apply, Read.val_main_cst_1_apply,
    Read.val_main_v3_apply, Read.val_main_v8_apply, Read.val_main_v6_apply, e3, e6, rowsum_at, rowmax_at]
  simp only [Ideal.maximumf_def, Ideal.addf_def, Ideal.subf_def, Ideal.ofBits_def]
  rfl

/-- The sum over both axes: the sum of the hinges of all pairs. -/
theorem total_eq (a0 a1 a2 : FVec Ideal S8192x2048 .f32) :
    Read.val_main_v12 (F := Ideal) a0 a1 a2 = fun _ => Cert.Hinge.hinge a0 a1 a2 := by
  funext u
  rw [Read.val_main_v12_apply, Read.val_main_cst_3_apply, Ideal.ofBits_def, Ideal.ofBits_zero_f32, zero_add, sum_idx2]
  exact Finset.sum_congr rfl fun i _ => Finset.sum_congr rfl fun j _ => pair_at a0 a1 a2 i j

/-- The last stage of the reference is the specification. -/
theorem val_eq (a0 a1 a2 : FVec Ideal S8192x2048 .f32) :
    Read.val_main_v13 (F := Ideal) a0 a1 a2 = Cert.Hinge.G a0 a1 a2 :=
  congrArg (fun x => Host.divf (F := Ideal) x (constant (F := Ideal) S_ .f32 0x4C800000#32)) (total_eq a0 a1 a2)

/-- The term the reference's run states for its result is the specification. -/
theorem ref_eq (a0 a1 a2 : FVec Ideal S8192x2048 .f32) :
    Host.divf (F := Ideal) (Host.reduceAdd (F := Ideal) (maximumf (addf (broadcastInDim S8192x8192 ![0, 1] bcast_S8192x1_S8192x8192_0_1 (subf (broadcastInDim S8192x1 ![] bcast_S_S8192x1 (constant (F := Ideal) S_ .f32 0x3F800000#32)) (broadcastInDim S8192x1 ![0] bcast_S8192_S8192x1_0 (Host.reduceAdd (F := Ideal) (mulf (a0) (a2)) (constant (F := Ideal) S_ .f32 0x00000000#32) reducesTo_S8192x2048_S8192_d1 h_S_)))) (broadcastInDim S8192x8192 ![0, 1] bcast_S1x8192_S8192x8192_0_1 (broadcastInDim S1x8192 ![1] bcast_S8192_S1x8192_1 (Host.reduce (FloatOps.maximumf (F := Ideal)) (a1) (constant (F := Ideal) S_ .f32 0xFF800000#32) reducesTo_S8192x2048_S8192_d1 h_S_)))) (broadcastInDim S8192x8192 ![] bcast_S_S8192x8192 (constant (F := Ideal) S_ .f32 0x00000000#32))) (constant (F := Ideal) S_ .f32 0x00000000#32) reducesTo_S8192x8192_S_d0_1 h_S_) (constant (F := Ideal) S_ .f32 0x4C800000#32)
      = Cert.Hinge.G a0 a1 a2 :=
  (Read.val_main_v13_eq (F := Ideal) a0 a1 a2).trans (val_eq a0 a1 a2)

end Cert.ReferenceIdeal.RefValue

end
-- ==== Proof.lean ====
/-
  The certificate: a two-stage Pallas kernel for the mean pairwise hinge loss against its jnp reference.

  With wpos i = Σ_l pos (i, l) · p (i, l) and nmax j = max_l neg (j, l), both programs compute
  (Σ_i Σ_j max ((1 − wpos i) + nmax j, 0)) / 2^26 over 8192 × 8192 pairs. The kernel's first stage takes the row sums
  and row maxima 256 rows at a time; its second stage adds the hinges up in 8 × 8 blocks of 1024 × 1024 pairs into a
  one-word accumulator carried across the grid. Over the extended reals addition is commutative and associative with
  no finiteness needed, so the blockwise sum is the sum over all pairs; every literal (1, 0, −∞, 2^26) is the same
  word on both sides and the final quotient is the same operation. The three frames: each kernel region runs to its
  end from the buffers the item before left, writing only its own outputs; the reference is straight-line host code.
  The idealization rewrote nothing.
-/
import proofs.«160039_j3642132267438_1_alg».proof.Defs
import proofs.«160039_j3642132267438_1_alg».proof.Proof.Gen.Kernel
import proofs.«160039_j3642132267438_1_alg».proof.Proof.Gen.KernelIdeal
import proofs.«160039_j3642132267438_1_alg».proof.Proof.Gen.ReferenceIdeal
import proofs.«160039_j3642132267438_1_alg».proof.Proof.Gen.ReferenceIdeal.Run
import proofs.«160039_j3642132267438_1_alg».proof.Proof.Gen.Pre_finite_inputs
import proofs.«160039_j3642132267438_1_alg».proof.Proof.K_Run
import proofs.«160039_j3642132267438_1_alg».proof.Proof.KI_Run
import proofs.«160039_j3642132267438_1_alg».proof.Proof.KI_Value
import proofs.«160039_j3642132267438_1_alg».proof.Proof.RefSide
import Idealize.ShloMosaic.Adequacy
import Idealize.ShloMosaic.Init

noncomputable section

namespace Cert.Proof

open Idealize.ShloMosaic Idealize.SL.Sem

/-- The word-level kernel runs, faults nowhere, and leaves its arguments as launched. -/
theorem frame_k : Cert.frame_Kernel := fun m ρ _ => Cert.Kernel.Fr.frame (F := Bits) m ρ

/-- So does its reading over the extended reals. -/
theorem frame_ki : Cert.frame_KernelIdeal := fun m ρ _ => Cert.KernelIdeal.Fr.frame (F := Ideal) m ρ

/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification's function of arguments that agree. -/
theorem algebraic : Cert.algebraic_KernelIdeal_ReferenceIdeal := by
  intro m ρ m' ρ' _ hagree
  refine ⟨fun c => Cert.Hinge.G (Cert.KernelIdeal.Val.pos m c) (Cert.KernelIdeal.Val.neg m c) (Cert.KernelIdeal.Val.pw m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.ref_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
